-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel

variable [Facts]

def fn {F : FTy → Type} [FloatOps F] (main_arg0 : FVec F S4096x1000 .f32) (main_arg1 : FVec F S4096x1000 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  main_v8
-- ==== Kernel.lean ====
abbrev S4096x1000 : Shape := ⟨2, ![4096, 1000]⟩
abbrev S16x1x128 : Shape := ⟨3, ![16, 1, 128]⟩
abbrev S256x1000 : Shape := ⟨2, ![256, 1000]⟩
abbrev S1x1x128 : Shape := ⟨3, ![1, 1, 128]⟩
abbrev S1x256x1000 : Shape := ⟨3, ![1, 256, 1000]⟩
abbrev S1 : Shape := ⟨1, ![1]⟩
abbrev S1x1x1 : Shape := ⟨3, ![1, 1, 1]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S4096x1000, .f32⟩
  | .hbm, ⟨1, _⟩ => ⟨S4096x1000, .f32⟩
  | .hbm, ⟨2, _⟩ => ⟨S16x1x128, .f32⟩
  | .hbm, ⟨3, _⟩ => ⟨S16x1x1, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x1000, .f32⟩
  | .local _ .vmem, ⟨1, _⟩ => ⟨S256x1000, .f32⟩
  | .local _ .vmem, ⟨2, _⟩ => ⟨S256x1000, .f32⟩
  | .local _ .vmem, ⟨3, _⟩ => ⟨S256x1000, .f32⟩
  | .local _ .vmem, ⟨4, _⟩ => ⟨S1x1x128, .f32⟩
  | .local _ .vmem, ⟨5, _⟩ => ⟨S1x1x128, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x1000_S256x1000_0_0 : ∀ a, (![0, 0] : Fin 2 → Nat) a + S256x1000.size a ≤ S256x1000.size a
  h_S256x1000 : 0 < S256x1000.numel
  shapeCasts_S256x1000_S1x256x1000 : S256x1000.ShapeCasts S1x256x1000
  reduces_S1x256x1000_S1 : S1x256x1000.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1000.size a ≤ S4096x1000.size a
  hwx0_0 : ∀ i : grid0.Coords, EltTy.bits .f32 = 32 ∨ (Rect.block (s := S4096x1000) S256x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1000.size a ≤ S4096x1000.size a
  hwx0_1 : ∀ i : grid0.Coords, EltTy.bits .f32 = 32 ∨ (Rect.block (s := S4096x1000) S256x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_arg0) S256x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1000 : Shape := ⟨2, ![4096, 1000]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S4096x1000, .f32⟩
  | .hbm, ⟨2, _⟩ => ⟨S4096x1000, .f32⟩
  | .hbm, ⟨3, _⟩ => ⟨S4096x1000, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4096x1000_S_d0_1 : S4096x1000.ReducesTo [0, 1] S_
  h_S_ : 0 < S_.numel

variable [Facts₀]

class Facts : Prop extends Facts₀ where

variable [Facts]
-- ==== Proof.Tiles.lean ====
/-
  Sixteen tiles of 256 rows make up the 4096 rows of a [4096, 1000] array: row `r` of tile `p` is row `256·p + r` of
  the array, and every row of the array is exactly one such row (`a = 256·(a / 256) + a % 256`). A sum over the whole
  array is therefore the sum, over the tiles, of each tile's own sum. Only the order and the grouping of the terms
  change, so this holds in every commutative monoid — in particular on the extended reals, where `⊥ + ⊤ = ⊥` but
  addition is still commutative and associative — and no term has to be finite.
-/
import Idealize.ShloMosaic.Lib.ValueIdx
import Idealize.ShloMosaic.PureOps.Ideal

open scoped BigOperators

noncomputable section

namespace Cert.Tiles

open Idealize.ShloMosaic Idealize.ShloMosaic.ValueIdx

/-- The indices of the whole [4096, 1000] array, -/
abbrev Arr : Type := (⟨2, ![4096, 1000]⟩ : Shape).Idx
/-- and of one [256, 1000] tile. -/
abbrev Blk : Type := (⟨2, ![256, 1000]⟩ : Shape).Idx

/-- Row `r` of tile `p`, as a row of the array. -/
def row (p : Fin 16) (r : Fin 256) : Fin 4096 :=
  ⟨256 * p.val + r.val, by have := p.isLt; have := r.isLt; omega⟩

/-- A row `a` of the array is row `a % 256` of tile `a / 256`, and of no other tile. -/
def rowEquiv : Fin 16 × Fin 256 ≃ Fin 4096 where
  toFun q := row q.1 q.2
  invFun a := (⟨a.val / 256, by have := a.isLt; omega⟩, ⟨a.val % 256, by omega⟩)
  left_inv q := by
    obtain ⟨p, r⟩ := q
    have hp := p.isLt
    have hr := r.isLt
    refine Prod.ext (Fin.ext ?_) (Fin.ext ?_)
    · show (256 * p.val + r.val) / 256 = p.val
      omega
    · show (256 * p.val + r.val) % 256 = r.val
      omega
  right_inv a := Fin.ext (by
    show 256 * (a.val / 256) + a.val % 256 = a.val
    omega)

/-- The array index under index `y` of tile `p`: the tile's row moved down `256·p` rows, the same column. -/
def inTile (p : Fin 16) (y : Blk) : Arr := ix2 (row p (y 0)) (y 1)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Tile `p`'s own sum of a function of the array's indices. -/
def tileSum {M : Type*} [AddCommMonoid M] (f : Arr → M) (p : Fin 16) : M := ∑ y : Blk, f (inTile p y)

/-- THE REGROUPING: the sum over the array is the sum over the sixteen tiles of each tile's sum. -/
theorem sum_tiles {M : Type*} [AddCommMonoid M] (f : Arr → M) :
    ∑ j, f j = ∑ p : Fin 16, tileSum f p := by
  rw [sum_idx2 f, ← Equiv.sum_comp rowEquiv, Fintype.sum_prod_type]
  refine Finset.sum_congr rfl fun p _ => ?_
  unfold tileSum
  rw [sum_idx2 (fun y : Blk => f (inTile p y))]
  rfl

/-- The summand of both programs: the second array times the logarithm of the first, at one index, on the extended
    reals (the logarithm as the ideal values read it, whatever it is at zero, below zero and at the infinities: both
    programs apply the same function). -/
def term (a0 a1 : Arr → EReal) : Arr → EReal := fun j => a1 j * Ideal.log (a0 j)

end Cert.Tiles

end
-- ==== Proof.TilePartial.lean ====
/-
  What the kernel body stores, read at the ideal values. The body multiplies the second block by the logarithm of the
  first, element by element, sums the products over both axes of the [256, 1000] block into one number, and writes that
  number to every one of the 128 lanes of its output block. The reduction's accumulator is the zero word, which is the
  sum's neutral element, so the stored value at every lane is the plain sum over the block of `x₁ · log x₀`; the view
  of the block as [1, 256, 1000] that the reduction is taken over lists the same elements once each.
-/
import proofs.«175917_j41652592836938_2_alg».proof.Proof.Gen.KernelIdeal.Skeleton
import Idealize.ShloMosaic.PureOps.Ideal.Laws

open scoped BigOperators

noncomputable section

namespace Cert.KernelIdeal.TilePartial

open Cert.KernelIdeal Cert.KernelIdeal.Gen Idealize.ShloMosaic

/-- From the one-element result `v` of the reduction to the stored block: `v` is reshaped to [1, 1, 1], its element
    extracted, splat to [1, 1] and reshaped back, then broadcast along the 128 lanes. Every lane therefore reads `v`
    at an index of its one-element shape. -/
theorem lanes_const (v : FVec Ideal S1 .f32) (y : S1x1x128.Idx) :
    ∃ j : S1.Idx, broadcastTo S1x1x128
      (shapeCast S1x1x1
        (shapeCast S1x1x1
          (broadcast S1x1
            (extractAt ![0, 0, 0] (shapeCast S1x1x1 v shapeCasts_S1_S1x1x1) inpos_S1x1x1_p0_0_0))
          shapeCasts_S1x1_S1x1x1)
        shapeCasts_S1x1x1_S1x1x1)
      broadcasts_S1x1x1_S1x1x128 y = v j := ⟨_, rfl⟩

/-- The products viewed as [1, 256, 1000] are the products of the [256, 1000] block in the same row-major order, each
    once: the two index sets correspond one to one, so the two sums have the same terms. -/
theorem sum_cast (x0 x1 : FVec Ideal S256x1000 .f32) :
    ∑ i : S1x256x1000.Idx, shapeCast S1x256x1000 (mulf (F := Ideal) x1 (log (F := Ideal) x0)) shapeCasts_S256x1000_S1x256x1000 i
      = ∑ k : S256x1000.Idx, x1 k * Ideal.log (x0 k) :=
  (Finset.sum_congr rfl fun i _ =>
    (rfl : shapeCast S1x256x1000 (mulf (F := Ideal) x1 (log (F := Ideal) x0)) shapeCasts_S256x1000_S1x256x1000 i
      = (fun k : S256x1000.Idx => x1 k * Ideal.log (x0 k)) (Shape.reshapeEquiv shapeCasts_S256x1000_S1x256x1000 i))).trans
    (Equiv.sum_comp (Shape.reshapeEquiv shapeCasts_S256x1000_S1x256x1000) fun k : S256x1000.Idx => x1 k * Ideal.log (x0 k))

/-- THE STORED BLOCK at any lane `y` is the sum over the input blocks' indices of `x₁ · log x₀`: a reduction into a
    shape whose axes all have size one is the sum over every index of its operand. -/
theorem payload_apply (x0 x1 : FVec Ideal S256x1000 .f32) (y : S1x1x128.Idx) :
    k0_pay1 (F := Ideal) x0 x1 y = ∑ k : S256x1000.Idx, x1 k * Ideal.log (x0 k) := by
  unfold k0_pay1
  obtain ⟨j, hj⟩ := lanes_const (multiReduction .add [1, 2] S1
    (shapeCast S1x256x1000 (mulf (F := Ideal) x1 (log (F := Ideal) x0)) shapeCasts_S256x1000_S1x256x1000) 0x00000000#32
    reduces_S1x256x1000_S1 (.inl rfl) rfl) y
  exact hj.trans ((Ideal.multiReduction_add_total _ _ reduces_S1x256x1000_S1 (by decide) _ _ j).trans (sum_cast x0 x1))

end Cert.KernelIdeal.TilePartial

end
-- ==== Proof.Partials.lean ====
/-
  The array of partial sums the region leaves. Grid point `t` stages rows `256·t … 256·t + 255` of both argument
  arrays (block `t` on the row axis, the one block on the column axis) and writes its [1, 1, 128] result to block `t`
  of the [16, 1, 128] output, so the sixteen points fill the output, each point one row of it. With the body's stored
  value being the sum over its input blocks, entry `(p, ·, ·)` of the output ends at tile `p`'s sum of
  `t · log s` over the argument arrays as the region finds them.
-/
import proofs.«175917_j41652592836938_2_alg».proof.Proof.Gen.KernelIdeal.Frame
import proofs.«175917_j41652592836938_2_alg».proof.Proof.Tiles
import proofs.«175917_j41652592836938_2_alg».proof.Proof.TilePartial
import Idealize.ShloMosaic.Lib.Pipeline.Value

open scoped BigOperators

noncomputable section

namespace Cert.KernelIdeal.Partials

open Cert.KernelIdeal Cert.KernelIdeal.Gen Idealize.ShloMosaic Idealize.ShloMosaic.TcCoe Idealize.SL.Sem
open Idealize.ShloMosaic.Pipeline (Dat)
open Cert.Tiles

variable (m : (ℓ : Loc nD τ sig) → Buf (Elt Ideal) ℓ) (ρ : Dev nD → PrngReg)

/-- The output array as one function of the two argument arrays: at `(p, ·, ·)` the sum over tile `p`. -/
def partials (a0 a1 : Arr → EReal) : S16x1x128.Idx → EReal := fun i => tileSum (term a0 a1) (i 0)

/-- The partial sums at an index: the sum over the tile the index's row names. -/
theorem partials_apply (a0 a1 : Arr → EReal) (i : S16x1x128.Idx) :
    partials a0 a1 i = tileSum (term a0 a1) (i 0) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The body's stored value when its two input blocks are tile `p` of two arrays: tile `p`'s sum, at every lane. -/
theorem block_apply (a0 a1 : Arr → EReal) (x0 x1 : FVec Ideal S256x1000 .f32) (p : Fin 16)
    (h0 : ∀ k : Blk, x0 k = a0 (inTile p k)) (h1 : ∀ k : Blk, x1 k = a1 (inTile p k)) (y : S1x1x128.Idx) :
    k0_pay1 (F := Ideal) x0 x1 y = tileSum (term a0 a1) p := by
  rw [TilePartial.payload_apply]
  exact Finset.sum_congr rfl fun k _ => by rw [h0 k, h1 k]; rfl

/-- The printed index maps over the sixteen points: both inputs' row block is the output's first block index, their
    column block is the one block, and the output's other two block indices are zero. -/
theorem idx_facts : ∀ t : Fin cfg0.N,
    win0_0.index t (0 : Fin 2) = win0_2.index t (0 : Fin 3) ∧ win0_0.index t (1 : Fin 2) = 0
    ∧ win0_1.index t (0 : Fin 2) = win0_2.index t (0 : Fin 3) ∧ win0_1.index t (1 : Fin 2) = 0
    ∧ win0_2.index t (0 : Fin 3) ≤ 15 ∧ win0_2.index t (1 : Fin 3) = 0 ∧ win0_2.index t (2 : Fin 3) = 0 :=
  (by decide +kernel : ∀ t : Fin grid0.N, _)

/-- Every row of the output is some point's block. -/
theorem idx_onto : ∀ q : Fin 16, ∃ t : Fin cfg0.N, win0_2.index t = ![q.val, 0, 0] :=
  (by decide +kernel : ∀ q : Fin 16, ∃ t : Fin grid0.N, win0_2.index t = ![q.val, 0, 0])

/-- The one store of the body covers its whole output block from offset zero, and its loads read the whole input
    blocks, so what the body leaves in the output block is its stored value of the two input blocks. -/
theorem out_eq (x0 x1 : FVec Ideal S256x1000 .f32) : out0_2 (F := Ideal) x0 x1 = k0_pay1 (F := Ideal) x0 x1 := by
  unfold out0_2
  rw [View.canon_unit_zero hz3]
  simp only [View.ld_unit_zero (S := S256x1000) hz2]

set_option maxHeartbeats 100000 in
/-- WHAT POINT `t` WRITES BACK is block `t` of the partial sums of the argument arrays as the region finds them. -/
theorem flushed_eq (c : Dev nD) (t : Fin cfg0.N) :
    (dats m 0 c).flushed 2 t
      = ((cfg0.win 2).blk t).view.read (Elt Ideal) (partials (V m c main_arg0) (V m c main_arg1)) := by
  obtain ⟨e0, e1, e2, e3, e4, e5, e6⟩ := idx_facts t
  -- the body's stored value at point `t`: the sum over the tile whose number is the output's block index
  have hw : ∀ y : S1x1x128.Idx, k0_pay1 (F := Ideal) (iblk m c 0 t) (iblk m c 1 t) y
      = tileSum (term (V m c main_arg0) (V m c main_arg1)) ⟨win0_2.index t (0 : Fin 3), by omega⟩ := by
    intro y
    refine block_apply (V m c main_arg0) (V m c main_arg1) (iblk m c 0 t) (iblk m c 1 t)
      ⟨win0_2.index t (0 : Fin 3), by omega⟩ ?_ ?_ y
    · intro k
      show V m c main_arg0 (((cfg0.win 0).blk t).view.emb k) = V m c main_arg0 (inTile _ k)
      refine congrArg _ (funext fun a => Fin.ext ?_)
      match a with
      | ⟨0, _⟩ =>
        show win0_0.index t (0 : Fin 2) * 256 + 1 * (k 0).val = 256 * win0_2.index t (0 : Fin 3) + (k 0).val
        omega
      | ⟨1, _⟩ =>
        show win0_0.index t (1 : Fin 2) * 1000 + 1 * (k 1).val = (k 1).val
        omega
    · intro k
      show V m c main_arg1 (((cfg0.win 1).blk t).view.emb k) = V m c main_arg1 (inTile _ k)
      refine congrArg _ (funext fun a => Fin.ext ?_)
      match a with
      | ⟨0, _⟩ =>
        show win0_1.index t (0 : Fin 2) * 256 + 1 * (k 0).val = 256 * win0_2.index t (0 : Fin 3) + (k 0).val
        omega
      | ⟨1, _⟩ =>
        show win0_1.index t (1 : Fin 2) * 1000 + 1 * (k 1).val = (k 1).val
        omega
  show (cfg0.win 2).cut (grid0.coords t) ((dats m 0 c).after 2 t) = _
  rw [after0_2, out_eq (iblk m c 0 t) (iblk m c 1 t)]
  generalize k0_pay1 (F := Ideal) (iblk m c 0 t) (iblk m c 1 t) = w at hw ⊢
  funext y
  have hy : (y 0).val < 1 := (y 0).isLt
  refine (hw y).trans ?_
  rw [View.read_apply, partials_apply]
  refine congrArg (tileSum (term (V m c main_arg0) (V m c main_arg1))) (Fin.ext ?_)
  show win0_2.index t (0 : Fin 3) = win0_2.index t (0 : Fin 3) * 1 + 1 * (y 0).val
  omega

/-- An index of the output is in point `t`'s block iff each coordinate is in the block's range on its axis. -/
theorem mem_blk (t : Fin cfg0.N) (i : S16x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- Every index of the output is in the block of the point whose block index is the index's row. -/
theorem cover (i : S16x1x128.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 128 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

/-- THE ARRAY after the region: the partial sums of the argument arrays. -/
theorem final (c : Dev nD) :
    (dats m 0 c).arrAt 2 cfg0.N = partials (V m c main_arg0) (V m c main_arg1) :=
  (dats m 0 c).arrAt_eq_of_cover 2 _ (fun t _ => flushed_eq m c t) cover

end Cert.KernelIdeal.Partials

end
-- ==== Proof.Loss.lean ====
/-
  The result of both programs as ONE function of the two argument arrays `s` and `t`: the sum over the whole
  [4096, 1000] array of `t · log s`, added to the sum's initial value (the zero word), divided by the word of 4096.0
  and negated. Both programs end with the same host division by the same word and the same host negation, so these two
  operations are kept as they are: nothing about them is used but that they are applied to equal arguments.
-/
import proofs.«175917_j41652592836938_2_alg».proof.Proof.Tiles

open scoped BigOperators

noncomputable section

namespace Cert.Loss

open Idealize.ShloMosaic Cert.Tiles

/-- The last two operations of both programs, on one number: divide by the word of 4096.0, negate. -/
def scale (x : EReal) : EReal :=
  FloatOps.hostNegf (F := Ideal) (φ := .f32)
    (FloatOps.hostDivf (F := Ideal) (φ := .f32) x (Ideal.ofBits .f32 0x45800000#32))

/-- The one result, at the one index of the rank-zero shape. -/
def loss (a0 a1 : Arr → EReal) : (⟨0, ![]⟩ : Shape).Idx → EReal := fun _ =>
  scale (Ideal.ofBits .f32 0x00000000#32 + ∑ j : Arr, term a0 a1 j)

/-- The same with the sum taken tile by tile: the sixteen tiles' sums added up. Equal to `loss` by the regrouping
    of the sum alone — no term need be finite. -/
theorem loss_eq_tiles (a0 a1 : Arr → EReal) (i : (⟨0, ![]⟩ : Shape).Idx) :
    scale (Ideal.ofBits .f32 0x00000000#32 + ∑ p : Fin 16, tileSum (term a0 a1) p) = loss a0 a1 i := by
  unfold loss
  rw [sum_tiles (term a0 a1)]

end Cert.Loss

end
-- ==== Proof.KernelLoss.lean ====
/-
  The kernel's result. After the region, the host takes lane 0 of each of the sixteen rows of the [16, 1, 128] array of
  partial sums, lists them as a vector of sixteen numbers, sums them onto the zero word, divides by the word of 4096.0 and
  negates. Every lane of row `p` holds tile `p`'s sum, so the sixteen numbers are the sixteen tiles' sums, and their
  sum is the sum over the whole array regrouped by tiles: the result is the function `loss` of the two argument
  arrays, the one the reference computes.
-/
import proofs.«175917_j41652592836938_2_alg».proof.Proof.Partials
import proofs.«175917_j41652592836938_2_alg».proof.Proof.Loss
import Idealize.ShloMosaic.Lib.StableHlo.Run

open scoped BigOperators

noncomputable section

namespace Cert.KernelIdeal.KernelLoss

open Cert.KernelIdeal Cert.KernelIdeal.Gen Idealize.ShloMosaic Idealize.ShloMosaic.TcCoe Idealize.SL.Sem
open Idealize.ShloMosaic.StableHlo Idealize.ShloMosaic.ValueIdx
open Cert.Tiles Cert.Loss Cert.KernelIdeal.Partials

variable (m : (ℓ : Loc nD τ sig) → Buf (Elt Ideal) ℓ) (ρ : Dev nD → PrngReg)

/-! ## The host operations after the region, as one function of the region's output array -/

/-- Lane 0 of each row, as a vector of sixteen; their sum onto the zero word; divided by the word of 4096.0; negated. -/
def tail (A : FVec Ideal S16x1x128 .f32) : FVec Ideal S_ .f32 :=
  Host.negf (F := Ideal) (Host.divf (F := Ideal)
    (Host.reduceAdd (F := Ideal)
      (fun i => shapeCast S16 (extractStridedSlice S16x1x1 ![0, 0, 0] A slices_S16x1x128_S16x1x1_0_0_0)
        shapeCasts_S16x1x1_S16 i)
      (constant (F := Ideal) S_ .f32 0x00000000#32) reducesTo_S16_S_d0 h_S_)
    (constant (F := Ideal) S_ .f32 0x45800000#32))

/-- Entry `r` of the vector of sixteen is the array at row `r`, lane 0: the slice keeps lane 0 of the one
    sublane of every row, and listing a [16, 1, 1] array as [16] keeps the rows in order. -/
theorem lane0 (A : FVec Ideal S16x1x128 .f32) (r : Fin 16) :
    shapeCast S16 (extractStridedSlice S16x1x1 ![0, 0, 0] A slices_S16x1x128_S16x1x1_0_0_0) shapeCasts_S16x1x1_S16 (ix1 r)
      = A (ix3 r 0 0) := by
  refine (shapeCast_apply _ shapeCasts_S16x1x1_S16 (ix1 r) (ix3 r 0 0) ?_).trans
    (extractStridedSlice_apply ![0, 0, 0] A slices_S16x1x128_S16x1x1_0_0_0 (ix3 r 0 0) (ix3 r 0 0) ?_)
  · rw [Shape.rowMajor_val_three, Shape.rowMajor_val_one]
    show (r.val * 1 + 0) * 1 + 0 = r.val
    omega
  · intro a
    match a with
    | ⟨0, _⟩ =>
      show r.val = 0 + r.val
      omega
    | ⟨1, _⟩ => rfl
    | ⟨2, _⟩ => rfl

/-- The host's sum of a vector of sixteen into the rank-zero shape, at the ideal values: the initial value plus the sum
    of the sixteen entries. -/
theorem reduce16 (v : FVec Ideal S16 .f32) (init : FVec Ideal S_ .f32) (i : S_.Idx) :
    Host.reduceAdd (F := Ideal) v init reducesTo_S16_S_d0 h_S_ i
      = init (Shape.Idx.first h_S_) + ∑ q : S16.Idx, v q := by
  simp only [Host.reduceAdd, Ideal.hostReduceAdd_def]
  exact Ideal.hostReduceAdd_total reducesTo_S16_S_d0 (fun b => b.elim0) v _ i

/-- The tail at its one index: the zero word plus the sum over the sixteen rows of lane 0, scaled. -/
theorem tail_apply (A : FVec Ideal S16x1x128 .f32) (i : S_.Idx) :
    tail A i = scale (Ideal.ofBits .f32 0x00000000#32 + ∑ r : Fin 16, A (ix3 r 0 0)) := by
  unfold tail scale
  show FloatOps.hostNegf (FloatOps.hostDivf
    (Host.reduceAdd (F := Ideal)
      (fun i => shapeCast S16 (extractStridedSlice S16x1x1 ![0, 0, 0] A slices_S16x1x128_S16x1x1_0_0_0)
        shapeCasts_S16x1x1_S16 i)
      (constant (F := Ideal) S_ .f32 0x00000000#32) reducesTo_S16_S_d0 h_S_ i) _) = _
  rw [reduce16, sum_idx1]
  simp only [lane0]
  rfl

/-- THE TAIL OF THE PARTIAL SUMS is the common result: lane 0 of row `p` is tile `p`'s sum, and the sixteen
    tiles' sums add up to the sum over the whole array. -/
theorem tail_partials (a0 a1 : Arr → EReal) : tail (partials a0 a1) = loss a0 a1 := by
  funext i
  rw [tail_apply, ← loss_eq_tiles a0 a1 i]
  exact congrArg (fun x => scale (Ideal.ofBits .f32 0x00000000#32 + x))
    (Finset.sum_congr rfl fun r _ => partials_apply a0 a1 (ix3 r 0 0))

/-! ## The run -/

/-- The result buffer after the host operations that follow the region is `loss` of the two argument arrays. -/
theorem tail_eq (c : Dev nD) :
    Pipeline.afterTail₀ cfgs (dats m) 0 (V0 m) [hostOps1] c main_v5
      = loss (m ((c : Thread nD τ).loc main_arg0)) (m ((c : Thread nD τ).loc main_arg1)) := by
  unfold Pipeline.afterTail₀
  show StableHlo.after hostOps1 _ (Proc.devRef .tc main_v5) = _
  after_results
  show tail (Pipeline.withArrays (cfgs 0).spec c (V0 m c) (fun w => (dats m 0 c).arrAt w (cfgs 0).N)
    (Proc.devRef .tc main_v0)) = _
  exact (congrArg tail ((Pipeline.withArrays_arr spec0 launch0.win.arr_inj c _ _ 2).trans (final m c))).trans
    (tail_partials _ _)

/-- THE KERNEL'S RUN: every weakly fair execution terminates with the result at `loss` of the argument arrays and the
    argument arrays unchanged. -/
theorem run : θ_run defs (onTc (τ := τ) (main (F := Ideal))) ⟨m, fun _ => 0, ρ⟩ fun r => ∀ c : Dev nD,
      r.2.mem ((c : Thread nD τ).loc main_v5)
        = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v5 (Pipeline.mem_restRefs_of main_v5 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelLoss

end
-- ==== Proof.RefLoss.lean ====
/-
  The reference computes the common result directly: the logarithm of the first array, times the second, summed over
  the whole [4096, 1000] array onto the zero word, divided by the word of 4096.0 and negated. Read at the ideal values
  one operation at a time, its result is the function `loss` of its two arguments: the host's logarithm and the
  product are the summand, and the host's sum over both axes is the initial value plus the sum over every index.
-/
import proofs.«175917_j41652592836938_2_alg».proof.Proof.Gen.ReferenceIdeal.Read
import proofs.«175917_j41652592836938_2_alg».proof.Proof.Loss

open scoped BigOperators

noncomputable section

namespace Cert.ReferenceIdeal.RefLoss

open Cert.ReferenceIdeal Cert.ReferenceIdeal.Read Idealize.ShloMosaic Cert.Tiles Cert.Loss

/-- The reference's product stage is the summand, as a function of the index. -/
theorem summand_eq (x0 x1 : FVec Ideal S4096x1000 .f32) : val_main_v1 (F := Ideal) x0 x1 = term x0 x1 := rfl

/-- THE REFERENCE'S RESULT is `loss` of its two arguments. -/
theorem result_eq (x0 x1 : FVec Ideal S4096x1000 .f32) : val_main_v4 (F := Ideal) x0 x1 = loss x0 x1 := by
  funext i
  rw [val_main_v4_apply, val_main_v3_apply, val_main_v2_apply, val_main_cst_apply, val_main_cst_0_apply, summand_eq]
  rfl

end Cert.ReferenceIdeal.RefLoss

end
-- ==== Proof.lean ====
/-
  The mean log-likelihood loss `−(Σ_{b,c} t[b,c] · log s[b,c]) / 4096` over two [4096, 1000] arrays, computed two ways.

  The kernel cuts the 4096 rows into sixteen tiles of 256 rows. At each of its sixteen grid points it sums `t · log s`
  over one tile into one number and writes that number along the 128 lanes of one row of a [16, 1, 128] array; the host
  then takes lane 0 of each row, adds the sixteen numbers onto zero, divides by 4096.0 and negates. The reference takes
  the logarithm, the product and the sum over the whole array onto zero in one go, then divides by the same 4096.0 and
  negates.

  Read on the extended reals, where every float operation is the exact one, both are the same function `loss` of the
  two arrays (Proof/Loss.lean): the logarithm is one function on both sides, zero is the neutral element of the sum, and
  the sum over the array is the sum over the tiles of each tile's sum (Proof/Tiles.lean) — a regrouping of the terms of
  a sum in a commutative monoid, which holds at the infinities too. So the precondition (finite inputs) is never opened.

  The pieces: Proof/TilePartial.lean (what the body stores is its tile's sum), Proof/Partials.lean (the array the region
  leaves holds tile `p`'s sum along row `p`), Proof/KernelLoss.lean (the host operations after the region turn
  that array into `loss`; the kernel's run), Proof/RefLoss.lean (the reference's result is `loss`). The idealization
  rewrote no operation, so the idealized kernel is the kernel's own text read at the ideal values.
-/
import proofs.«175917_j41652592836938_2_alg».proof.Defs
import proofs.«175917_j41652592836938_2_alg».proof.Proof.Gen.Kernel
import proofs.«175917_j41652592836938_2_alg».proof.Proof.Gen.Kernel.Skeleton
import proofs.«175917_j41652592836938_2_alg».proof.Proof.Gen.Kernel.Launch
import proofs.«175917_j41652592836938_2_alg».proof.Proof.Gen.Kernel.Points
import proofs.«175917_j41652592836938_2_alg».proof.Proof.Gen.Kernel.Frame
import proofs.«175917_j41652592836938_2_alg».proof.Proof.Gen.KernelIdeal
import proofs.«175917_j41652592836938_2_alg».proof.Proof.Gen.KernelIdeal.Skeleton
import proofs.«175917_j41652592836938_2_alg».proof.Proof.Gen.KernelIdeal.Launch
import proofs.«175917_j41652592836938_2_alg».proof.Proof.Gen.KernelIdeal.Points
import proofs.«175917_j41652592836938_2_alg».proof.Proof.Gen.KernelIdeal.Frame
import proofs.«175917_j41652592836938_2_alg».proof.Proof.Gen.ReferenceIdeal
import proofs.«175917_j41652592836938_2_alg».proof.Proof.Gen.ReferenceIdeal.Run
import proofs.«175917_j41652592836938_2_alg».proof.Proof.Gen.ReferenceIdeal.Read
import proofs.«175917_j41652592836938_2_alg».proof.Proof.Gen.Pre_finite_inputs
import proofs.«175917_j41652592836938_2_alg».proof.Proof.KernelLoss
import proofs.«175917_j41652592836938_2_alg».proof.Proof.RefLoss
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to restate. -/
theorem preserves : Cert.preserves_Kernel_KernelIdeal := trivial

/-- From memories that agree on the two arguments both programs end at `loss` of those arguments: the kernel by its run
    (the tiles' sums added up), the reference by its run read one operation at a time. -/
theorem algebraic : Cert.algebraic_KernelIdeal_ReferenceIdeal := by
  intro m ρ m' ρ' _ hagree
  refine ⟨fun c => Cert.Loss.loss (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelLoss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefLoss.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
